-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S1x1024x1024 : Shape := ⟨3, ![1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d0_w32 : S1024x1024.Iotas .tc 32 [0]
  iota_S1024x1024_d1_w32 : S1024x1024.Iotas .tc 32 [1]
  rotates_S1024x1024_d0 : S1024x1024.Rotates 0 none
  rotates_S1024x1024_d1 : S1024x1024.Rotates 1 none
  shapeCasts_S1024x1024_S1x1024x1024 : S1024x1024.ShapeCasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩
abbrev S64x1026x1026 : Shape := ⟨3, ![64, 1026, 1026]⟩

abbrev nBuf : Space → Nat
  | .hbm => 22
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S_, .i32⟩
  | .hbm, ⟨2, _⟩ => ⟨S_, .f32⟩
  | .hbm, ⟨3, _⟩ => ⟨S64x1026x1026, .f32⟩
  | .hbm, ⟨4, _⟩ => ⟨S_, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  pads_S64x1024x1024_S64x1026x1026_000_110_110 : S64x1024x1024.Pads (![0, 1, 1] : Fin 3 → Nat) ![0, 1, 1] ![0, 0, 0] S64x1026x1026
  h_S_ : 0 < S_.numel
  bcast_S_S64x1024x1024 : S_.BroadcastsInDim S64x1024x1024 (![] : Fin 0 → Fin S64x1024x1024.rank)
  slices_S64x1026x1026_S64x1024x1024_0_0_0 : S64x1026x1026.Slices ![0, 0, 0] S64x1024x1024
  slices_S64x1026x1026_S64x1024x1024_0_0_1 : S64x1026x1026.Slices ![0, 0, 1] S64x1024x1024
  slices_S64x1026x1026_S64x1024x1024_0_0_2 : S64x1026x1026.Slices ![0, 0, 2] S64x1024x1024
  slices_S64x1026x1026_S64x1024x1024_0_1_0 : S64x1026x1026.Slices ![0, 1, 0] S64x1024x1024
  slices_S64x1026x1026_S64x1024x1024_0_1_2 : S64x1026x1026.Slices ![0, 1, 2] S64x1024x1024
  slices_S64x1026x1026_S64x1024x1024_0_2_0 : S64x1026x1026.Slices ![0, 2, 0] S64x1024x1024
  slices_S64x1026x1026_S64x1024x1024_0_2_1 : S64x1026x1026.Slices ![0, 2, 1] S64x1024x1024
  slices_S64x1026x1026_S64x1024x1024_0_2_2 : S64x1026x1026.Slices ![0, 2, 2] S64x1024x1024

variable [Facts₀]

class Facts : Prop extends Facts₀ where

variable [Facts]
-- ==== Proof.LibNeighbourMax.lean ====
/-
  The eight-neighbour maximum of a zero-padded image, in two arrangements.

  An image `img : Fin n → Fin m → α` over a linear order is extended by a fill value `z` to all of `ℕ × ℕ`, with the
  image's entry `(i, j)` sitting at the PADDED coordinates `(i + 1, j + 1)` (`padded`): row `0`, row `n + 1`,
  column `0` and column `m + 1` hold the fill. Around the padded centre `(i + 1, j + 1)` the maximum of the fill and the
  eight neighbours can be taken directly, one neighbour after the other (`direct`), or SEPARABLY: first the maximum of
  each column's three entries (`col3`), then the centre column's two outer entries joined with the three-entry maxima of
  the columns to the left and to the right (`separable`). The two are the same nine values under an associative and
  commutative operation (`separable_eq_direct`).
-/
import Mathlib.Order.Lattice
import Mathlib.Tactic.Ring

namespace NeighbourMax

variable {α : Type*}

/-- The image extended by the fill `z`: entry `(i, j)` of the image at padded coordinates `(i + 1, j + 1)`, the fill
    everywhere else. -/
def padded (z : α) {n m : ℕ} (img : Fin n → Fin m → α) (I J : ℕ) : α :=
  if h : (1 ≤ I ∧ I ≤ n) ∧ (1 ≤ J ∧ J ≤ m) then img ⟨I - 1, by omega⟩ ⟨J - 1, by omega⟩ else z

/-- Inside, the padded image is the image. -/
theorem padded_inside (z : α) {n m : ℕ} (img : Fin n → Fin m → α) (I J : ℕ) (hI : I < n) (hJ : J < m) :
    padded z img (I + 1) (J + 1) = img ⟨I, hI⟩ ⟨J, hJ⟩ := by
  unfold padded
  rw [dif_pos ⟨⟨by omega, by omega⟩, ⟨by omega, by omega⟩⟩]
  rfl

/-- Inside, with the padded coordinates given by equations: the form a caller with its own arithmetic uses. -/
theorem padded_at (z : α) {n m : ℕ} (img : Fin n → Fin m → α) (I J : ℕ) (i : Fin n) (j : Fin m)
    (hI : I = i.val + 1) (hJ : J = j.val + 1) : padded z img I J = img i j := by
  subst hI hJ
  exact padded_inside z img i.val j.val i.isLt j.isLt

/-- A row outside the image holds the fill. -/
theorem padded_row_out (z : α) {n m : ℕ} (img : Fin n → Fin m → α) (I J : ℕ) (hI : I = 0 ∨ n < I) :
    padded z img I J = z := by
  unfold padded
  rw [dif_neg (by omega)]

/-- A column outside the image holds the fill. -/
theorem padded_col_out (z : α) {n m : ℕ} (img : Fin n → Fin m → α) (I J : ℕ) (hJ : J = 0 ∨ m < J) :
    padded z img I J = z := by
  unfold padded
  rw [dif_neg (by omega)]

variable [LinearOrder α]

/-- The fill and the eight neighbours of the padded centre `(i + 1, j + 1)`, joined one after the other, row by row. -/
def direct (z : α) (P : ℕ → ℕ → α) (i j : ℕ) : α :=
  max (max (max (max (max (max (max (max z (P i j)) (P i (j + 1))) (P i (j + 2))) (P (i + 1) j)) (P (i + 1) (j + 2)))
    (P (i + 2) j)) (P (i + 2) (j + 1))) (P (i + 2) (j + 2))

/-- The three entries of padded column `J` in padded rows `i`, `i + 1`, `i + 2`, joined. -/
def col3 (P : ℕ → ℕ → α) (i J : ℕ) : α := max (P (i + 1) J) (max (P (i + 2) J) (P i J))

/-- The centre column's two outer entries, then the three-entry maxima of the left and the right column, then the fill. -/
def separable (z : α) (P : ℕ → ℕ → α) (i j : ℕ) : α :=
  max (max (max (max (P (i + 2) (j + 1)) (P i (j + 1))) (col3 P i j)) (col3 P i (j + 2))) z

/-- The separable arrangement joins the same nine values as the direct one. -/
theorem separable_eq_direct (z : α) (P : ℕ → ℕ → α) (i j : ℕ) : separable z P i j = direct z P i j := by
  unfold separable direct col3
  ac_rfl

/-- A column of fill joins to the fill. -/
theorem col3_fill (z : α) (P : ℕ → ℕ → α) (i J : ℕ) (h : ∀ I, P I J = z) : col3 P i J = z := by
  unfold col3
  rw [h, h, h, max_self, max_self]

end NeighbourMax
-- ==== Proof.LibShiftFill.lean ====
/-
  A roll by one whose wrapped line is masked is a shift with fill.

  Rolling a matrix by one along an axis moves every line to its neighbour's place and brings the line at one end around
  to the other. Selecting a fill value `z` exactly on that wrapped line (where an iota along the axis equals the end's
  coordinate) removes the wrap: what is left is the matrix SHIFTED by one line, with `z` in the line that has no
  neighbour. Four cases, for a `[n0, n1]` matrix `y` read at `(i, j)`:
    rows towards lower indices   (roll by `n0 - 1`, mask row `n0 - 1`):  `y (i + 1, j)`, or `z` when `i + 1 = n0`;
    rows towards higher indices  (roll by `1`,      mask row `0`):       `y (i - 1, j)`, or `z` when `i = 0`;
    columns towards lower indices  (roll by `n1 - 1`, mask column `n1 - 1`): `y (i, j + 1)`, or `z` when `j + 1 = n1`;
    columns towards higher indices (roll by `1`,      mask column `0`):      `y (i, j - 1)`, or `z` when `j = 0`.
  The roll amount `s` and the masked coordinate `e` are 32-bit words given by their values; the extents are below `2 ^ 32`,
  so that a coordinate converted to a word is compared faithfully.
-/
import Idealize.ShloMosaic.Lib.ValueIdx
import Idealize.ShloMosaic.Lib.KernelVsHost

namespace ShiftFill

open Idealize.ShloMosaic Idealize.ShloMosaic.ValueIdx

/-- Comparing a small natural number, converted to a 32-bit word, with a word for equality compares the numbers. -/
theorem cmpi_eq_ofNat (a : ℕ) (e : BitVec 32) (ha : a < 2 ^ 32) :
    IntOp.cmpi .eq (BitVec.ofNat 32 a) e = if a = e.toNat then 1#1 else 0#1 := by
  unfold IntOp.cmpi
  by_cases h : a = e.toNat
  · rw [if_pos h]; subst h; simp
  · rw [if_neg h]
    have hne : (BitVec.ofNat 32 a == e) = false := by
      rw [beq_eq_false_iff_ne]
      intro hh
      apply h
      rw [← hh, BitVec.toNat_ofNat, Nat.mod_eq_of_lt ha]
    simp [hne]

variable {α : Type} {n0 n1 : ℕ}

/-- Rows rolled towards lower indices by one, the last row masked: entry `(i, j)` is `y (i + 1, j)`, and `z` in the last row. -/
theorem rows_down_fill (y : (⟨2, ![n0, n1]⟩ : Shape).Idx → α) (z : α) (s e : BitVec 32)
    (hi : (⟨2, ![n0, n1]⟩ : Shape).Iotas .tc 32 [0]) (hr : (⟨2, ![n0, n1]⟩ : Shape).Rotates 0 none)
    (hn : n0 < 2 ^ 32) (hs : s.toNat + 1 = n0) (he : e.toNat + 1 = n0) (i : Fin n0) (j : Fin n1) :
    select (cmpi .eq (iota .tc ⟨2, ![n0, n1]⟩ 32 [0] hi) (broadcast ⟨2, ![n0, n1]⟩ e)) (broadcast ⟨2, ![n0, n1]⟩ z)
        (dynamicRotate 0 s none y hr) (ix2 i j)
      = if h : i.val + 1 < n0 then y (ix2 ⟨i.val + 1, h⟩ j) else z := by
  have hil : i.val < n0 := i.isLt
  show Scalar.select (IntOp.cmpi .eq (BitVec.ofNat 32 (0 * n0 + i.val)) e) z (dynamicRotate 0 s none y hr (ix2 i j)) = _
  rw [Nat.zero_mul, Nat.zero_add, cmpi_eq_ofNat _ _ (by omega)]
  by_cases h : i.val + 1 < n0
  · rw [dif_pos h, if_neg (by omega), select_zero]
    refine dynamicRotate_apply (0 : Fin 2) s y hr _ _ (fun b => ?_)
    match b with
    | ⟨0, _⟩ =>
      show i.val + 1 = (i.val + n0 - s.toNat % n0) % n0
      rw [Nat.mod_eq_of_lt (by omega : s.toNat < n0), show i.val + n0 - s.toNat = i.val + 1 by omega,
        Nat.mod_eq_of_lt h]
    | ⟨1, _⟩ => rfl
  · rw [dif_neg h, if_pos (by omega), select_one]

/-- Rows rolled towards higher indices by one, the first row masked: entry `(i, j)` is `y (i - 1, j)`, and `z` in the first row. -/
theorem rows_up_fill (y : (⟨2, ![n0, n1]⟩ : Shape).Idx → α) (z : α) (s e : BitVec 32)
    (hi : (⟨2, ![n0, n1]⟩ : Shape).Iotas .tc 32 [0]) (hr : (⟨2, ![n0, n1]⟩ : Shape).Rotates 0 none)
    (hn : n0 < 2 ^ 32) (hs : s.toNat = 1) (he : e.toNat = 0) (i : Fin n0) (j : Fin n1) :
    select (cmpi .eq (iota .tc ⟨2, ![n0, n1]⟩ 32 [0] hi) (broadcast ⟨2, ![n0, n1]⟩ e)) (broadcast ⟨2, ![n0, n1]⟩ z)
        (dynamicRotate 0 s none y hr) (ix2 i j)
      = if h : 0 < i.val then y (ix2 ⟨i.val - 1, by omega⟩ j) else z := by
  have hil : i.val < n0 := i.isLt
  show Scalar.select (IntOp.cmpi .eq (BitVec.ofNat 32 (0 * n0 + i.val)) e) z (dynamicRotate 0 s none y hr (ix2 i j)) = _
  rw [Nat.zero_mul, Nat.zero_add, cmpi_eq_ofNat _ _ (by omega)]
  by_cases h : 0 < i.val
  · rw [dif_pos h, if_neg (by omega), select_zero]
    refine dynamicRotate_apply (0 : Fin 2) s y hr _ _ (fun b => ?_)
    match b with
    | ⟨0, _⟩ =>
      show i.val - 1 = (i.val + n0 - s.toNat % n0) % n0
      rw [hs, Nat.mod_eq_of_lt (by omega : 1 < n0), show i.val + n0 - 1 = (i.val - 1) + n0 by omega,
        Nat.add_mod_right, Nat.mod_eq_of_lt (by omega)]
    | ⟨1, _⟩ => rfl
  · rw [dif_neg h, if_pos (by omega), select_one]

/-- Columns rolled towards lower indices by one, the last column masked: entry `(i, j)` is `y (i, j + 1)`, and `z` in the
    last column. -/
theorem cols_down_fill (y : (⟨2, ![n0, n1]⟩ : Shape).Idx → α) (z : α) (s e : BitVec 32)
    (hi : (⟨2, ![n0, n1]⟩ : Shape).Iotas .tc 32 [1]) (hr : (⟨2, ![n0, n1]⟩ : Shape).Rotates 1 none)
    (hn : n1 < 2 ^ 32) (hs : s.toNat + 1 = n1) (he : e.toNat + 1 = n1) (i : Fin n0) (j : Fin n1) :
    select (cmpi .eq (iota .tc ⟨2, ![n0, n1]⟩ 32 [1] hi) (broadcast ⟨2, ![n0, n1]⟩ e)) (broadcast ⟨2, ![n0, n1]⟩ z)
        (dynamicRotate 1 s none y hr) (ix2 i j)
      = if h : j.val + 1 < n1 then y (ix2 i ⟨j.val + 1, h⟩) else z := by
  have hjl : j.val < n1 := j.isLt
  show Scalar.select (IntOp.cmpi .eq (BitVec.ofNat 32 (0 * n1 + j.val)) e) z (dynamicRotate 1 s none y hr (ix2 i j)) = _
  rw [Nat.zero_mul, Nat.zero_add, cmpi_eq_ofNat _ _ (by omega)]
  by_cases h : j.val + 1 < n1
  · rw [dif_pos h, if_neg (by omega), select_zero]
    refine dynamicRotate_apply (1 : Fin 2) s y hr _ _ (fun b => ?_)
    match b with
    | ⟨0, _⟩ => rfl
    | ⟨1, _⟩ =>
      show j.val + 1 = (j.val + n1 - s.toNat % n1) % n1
      rw [Nat.mod_eq_of_lt (by omega : s.toNat < n1), show j.val + n1 - s.toNat = j.val + 1 by omega,
        Nat.mod_eq_of_lt h]
  · rw [dif_neg h, if_pos (by omega), select_one]

/-- Columns rolled towards higher indices by one, the first column masked: entry `(i, j)` is `y (i, j - 1)`, and `z` in the
    first column. -/
theorem cols_up_fill (y : (⟨2, ![n0, n1]⟩ : Shape).Idx → α) (z : α) (s e : BitVec 32)
    (hi : (⟨2, ![n0, n1]⟩ : Shape).Iotas .tc 32 [1]) (hr : (⟨2, ![n0, n1]⟩ : Shape).Rotates 1 none)
    (hn : n1 < 2 ^ 32) (hs : s.toNat = 1) (he : e.toNat = 0) (i : Fin n0) (j : Fin n1) :
    select (cmpi .eq (iota .tc ⟨2, ![n0, n1]⟩ 32 [1] hi) (broadcast ⟨2, ![n0, n1]⟩ e)) (broadcast ⟨2, ![n0, n1]⟩ z)
        (dynamicRotate 1 s none y hr) (ix2 i j)
      = if h : 0 < j.val then y (ix2 i ⟨j.val - 1, by omega⟩) else z := by
  have hjl : j.val < n1 := j.isLt
  show Scalar.select (IntOp.cmpi .eq (BitVec.ofNat 32 (0 * n1 + j.val)) e) z (dynamicRotate 1 s none y hr (ix2 i j)) = _
  rw [Nat.zero_mul, Nat.zero_add, cmpi_eq_ofNat _ _ (by omega)]
  by_cases h : 0 < j.val
  · rw [dif_pos h, if_neg (by omega), select_zero]
    refine dynamicRotate_apply (1 : Fin 2) s y hr _ _ (fun b => ?_)
    match b with
    | ⟨0, _⟩ => rfl
    | ⟨1, _⟩ =>
      show j.val - 1 = (j.val + n1 - s.toNat % n1) % n1
      rw [hs, Nat.mod_eq_of_lt (by omega : 1 < n1), show j.val + n1 - 1 = (j.val - 1) + n1 by omega,
        Nat.add_mod_right, Nat.mod_eq_of_lt (by omega)]
  · rw [dif_neg h, if_pos (by omega), select_one]

end ShiftFill
-- ==== Proof.PoolBody.lean ====
/-
  The kernel body's stored value, read at one pixel.

  The body loads one `[1, 1024, 1024]` block, drops the unit axis, and computes on the `1024 × 1024` image `y`:
  `up` and `down` are `y` shifted by one row in either direction with zero in the row that has no neighbour (a roll by
  one with the wrapped row masked); `tri = max y (max up down)` is, at column `J`, the maximum of the three entries of
  column `J` in rows `i - 1, i, i + 1`; `tri` shifted by one column in either direction, again with zero fill, brings
  the left and the right column's three-entry maxima to the pixel; the stored value is
  `max (max (max (max up down) right) left) 0`. In the coordinates of the zero-padded image (pixel `(i, j)` at padded
  `(i + 1, j + 1)`) every shift-with-fill is a plain read of the padded image, so the stored value is the SEPARABLE
  arrangement of the eight-neighbour maximum, hence the direct one (`pay_apply`).
-/
import proofs.«135936_j43971875176514_2_alg».proof.Proof.Gen.KernelIdeal.Skeleton
import proofs.«135936_j43971875176514_2_alg».proof.Proof.LibNeighbourMax
import proofs.«135936_j43971875176514_2_alg».proof.Proof.LibShiftFill
import Idealize.ShloMosaic.Lib.ValueLayout
import Idealize.ShloMosaic.PureOps.Ideal.Laws

noncomputable section

namespace Cert.KernelIdeal.PoolBody

open Cert.KernelIdeal Cert.KernelIdeal.Gen
open Idealize.ShloMosaic Idealize.ShloMosaic.ValueIdx NeighbourMax

/-- The zero word at the extended reals; it is `0`. -/
def zf : EReal := Scalar.ofBits (F := Ideal) .f32 0x00000000#32
theorem zf_eq : zf = 0 := Ideal.ofBits_zero_f32

/-- An image as a function of its two coordinates. -/
def img (y : FVec Ideal S1024x1024 .f32) : Fin 1024 → Fin 1024 → EReal := fun i j => y (ix2 i j)

/-- Rows shifted towards lower indices, zero in the last row: entry `(i, j)` holds `y (i + 1, j)`. -/
def up (y : FVec Ideal S1024x1024 .f32) : FVec Ideal S1024x1024 .f32 :=
  select (cmpi .eq (iota .tc S1024x1024 32 [0] iota_S1024x1024_d0_w32) (broadcast S1024x1024 1023#32))
    (broadcast S1024x1024 zf) (dynamicRotate 0 1023#32 none y rotates_S1024x1024_d0)

/-- Rows shifted towards higher indices, zero in the first row: entry `(i, j)` holds `y (i - 1, j)`. -/
def down (y : FVec Ideal S1024x1024 .f32) : FVec Ideal S1024x1024 .f32 :=
  select (cmpi .eq (iota .tc S1024x1024 32 [0] iota_S1024x1024_d0_w32) (broadcast S1024x1024 0#32))
    (broadcast S1024x1024 zf) (dynamicRotate 0 1#32 none y rotates_S1024x1024_d0)

/-- Columns shifted towards higher indices, zero in the first column: entry `(i, j)` holds `g (i, j - 1)`. -/
def right (g : FVec Ideal S1024x1024 .f32) : FVec Ideal S1024x1024 .f32 :=
  select (cmpi .eq (iota .tc S1024x1024 32 [1] iota_S1024x1024_d1_w32) (broadcast S1024x1024 0#32))
    (broadcast S1024x1024 zf) (dynamicRotate 1 1#32 none g rotates_S1024x1024_d1)

/-- Columns shifted towards lower indices, zero in the last column: entry `(i, j)` holds `g (i, j + 1)`. -/
def left (g : FVec Ideal S1024x1024 .f32) : FVec Ideal S1024x1024 .f32 :=
  select (cmpi .eq (iota .tc S1024x1024 32 [1] iota_S1024x1024_d1_w32) (broadcast S1024x1024 1023#32))
    (broadcast S1024x1024 zf) (dynamicRotate 1 1023#32 none g rotates_S1024x1024_d1)

/-- The three-row maximum of every column. -/
def tri (y : FVec Ideal S1024x1024 .f32) : FVec Ideal S1024x1024 .f32 := maximumf y (maximumf (up y) (down y))

/-- The body's arithmetic on the image. -/
def pool (y : FVec Ideal S1024x1024 .f32) : FVec Ideal S1024x1024 .f32 :=
  maximumf (maximumf (maximumf (maximumf (up y) (down y)) (right (tri y))) (left (tri y))) (broadcast S1024x1024 zf)

/-- The stored value is that arithmetic between the two changes of shape. -/
theorem pay_eq (x0 : Vec Ideal S1x1024x1024 .f32) :
    k0_pay1 (F := Ideal) x0
      = shapeCast S1x1024x1024 (pool (shapeCast S1024x1024 x0 shapeCasts_S1x1024x1024_S1024x1024))
          shapeCasts_S1024x1024_S1x1024x1024 := rfl

/-- `up` reads the padded image one row below the pixel. -/
theorem up_apply (y : FVec Ideal S1024x1024 .f32) (i j : Fin 1024) :
    up y (ix2 i j) = padded 0 (img y) (i.val + 2) (j.val + 1) := by
  unfold up
  refine (ShiftFill.rows_down_fill (n0 := 1024) (n1 := 1024) y zf 1023#32 1023#32 _ _ (by norm_num) rfl rfl i j).trans ?_
  by_cases h : i.val + 1 < 1024
  · rw [dif_pos h]
    exact (padded_at 0 (img y) _ _ ⟨i.val + 1, h⟩ j rfl rfl).symm
  · rw [dif_neg h, zf_eq]
    exact (padded_row_out 0 (img y) _ _ (Or.inr (by omega))).symm

/-- `down` reads the padded image one row above the pixel. -/
theorem down_apply (y : FVec Ideal S1024x1024 .f32) (i j : Fin 1024) :
    down y (ix2 i j) = padded 0 (img y) i.val (j.val + 1) := by
  unfold down
  refine (ShiftFill.rows_up_fill (n0 := 1024) (n1 := 1024) y zf 1#32 0#32 _ _ (by norm_num) rfl rfl i j).trans ?_
  have hi : i.val < 1024 := i.isLt
  by_cases h : 0 < i.val
  · rw [dif_pos h]
    exact (padded_at 0 (img y) _ _ ⟨i.val - 1, by omega⟩ j (by show i.val = i.val - 1 + 1; omega) rfl).symm
  · rw [dif_neg h, zf_eq]
    exact (padded_row_out 0 (img y) _ _ (Or.inl (by omega))).symm

/-- The pixel itself sits at padded `(i + 1, j + 1)`. -/
theorem centre_apply (y : FVec Ideal S1024x1024 .f32) (i j : Fin 1024) :
    y (ix2 i j) = padded 0 (img y) (i.val + 1) (j.val + 1) :=
  (padded_at 0 (img y) _ _ i j rfl rfl).symm

/-- The three-row maximum at column `J` is the padded column `J + 1`'s three entries joined. -/
theorem tri_apply (y : FVec Ideal S1024x1024 .f32) (i J : Fin 1024) :
    tri y (ix2 i J) = col3 (padded 0 (img y)) i.val (J.val + 1) := by
  show max (y (ix2 i J)) (max (up y (ix2 i J)) (down y (ix2 i J))) = _
  rw [up_apply, down_apply, centre_apply y i J]
  rfl

/-- The three-row maxima shifted from the left: the padded column `j`'s, the fill when there is no column to the left. -/
theorem right_tri_apply (y : FVec Ideal S1024x1024 .f32) (i j : Fin 1024) :
    right (tri y) (ix2 i j) = col3 (padded 0 (img y)) i.val j.val := by
  unfold right
  refine (ShiftFill.cols_up_fill (n0 := 1024) (n1 := 1024) (tri y) zf 1#32 0#32 _ _ (by norm_num) rfl rfl i j).trans ?_
  have hj : j.val < 1024 := j.isLt
  by_cases h : 0 < j.val
  · rw [dif_pos h, tri_apply]
    show col3 (padded 0 (img y)) i.val (j.val - 1 + 1) = _
    rw [show j.val - 1 + 1 = j.val by omega]
  · rw [dif_neg h, zf_eq]
    exact (col3_fill 0 _ _ _ (fun I => padded_col_out 0 (img y) I _ (Or.inl (by omega)))).symm

/-- The three-row maxima shifted from the right: the padded column `j + 2`'s, the fill when there is no column to the right. -/
theorem left_tri_apply (y : FVec Ideal S1024x1024 .f32) (i j : Fin 1024) :
    left (tri y) (ix2 i j) = col3 (padded 0 (img y)) i.val (j.val + 2) := by
  unfold left
  refine (ShiftFill.cols_down_fill (n0 := 1024) (n1 := 1024) (tri y) zf 1023#32 1023#32 _ _ (by norm_num) rfl rfl i j).trans ?_
  by_cases h : j.val + 1 < 1024
  · rw [dif_pos h, tri_apply]
  · rw [dif_neg h, zf_eq]
    exact (col3_fill 0 _ _ _ (fun I => padded_col_out 0 (img y) I _ (Or.inr (by omega)))).symm

/-- The body's arithmetic at a pixel is the eight-neighbour maximum of the zero-padded image, with the zero baseline. -/
theorem pool_apply (y : FVec Ideal S1024x1024 .f32) (i j : Fin 1024) :
    pool y (ix2 i j) = direct 0 (padded 0 (img y)) i.val j.val := by
  rw [← separable_eq_direct]
  show max (max (max (max (up y (ix2 i j)) (down y (ix2 i j))) (right (tri y) (ix2 i j))) (left (tri y) (ix2 i j))) zf = _
  rw [up_apply, down_apply, right_tri_apply, left_tri_apply, zf_eq]
  rfl

/-- THE STORED VALUE AT A PIXEL: the eight-neighbour maximum, with the zero baseline, of the loaded block's one image
    padded by zeros. -/
theorem pay_apply (x0 : Vec Ideal S1x1024x1024 .f32) (u : Fin 1) (i j : Fin 1024) :
    k0_pay1 (F := Ideal) x0 (ix3 u i j)
      = direct 0 (padded 0 (fun i' j' : Fin 1024 => x0 (ix3 (0 : Fin 1) i' j'))) i.val j.val := by
  rw [pay_eq]
  refine (shapeCast_ab_1ab_apply _ shapeCasts_S1024x1024_S1x1024x1024 u i j).trans ?_
  rw [pool_apply]
  refine congrArg (fun f => direct 0 (padded 0 f) i.val j.val) ?_
  funext i' j'
  exact shapeCast_1ab_ab_apply x0 shapeCasts_S1x1024x1024_S1024x1024 i' j'

end Cert.KernelIdeal.PoolBody

end
-- ==== Proof.PoolSpec.lean ====
/-
  The specification both programs meet: the 3 × 3 maximum with a hole.

  For an array `x` of 64 images of `1024 × 1024` extended reals, the result at `(b, i, j)` is the maximum of `0` and the
  eight neighbours of pixel `(i, j)` in image `b` — the pixel itself left out —, a neighbour outside the image counting
  as `0`. Written over the zero-padded image (`NeighbourMax.padded`: pixel `(i, j)` at padded `(i + 1, j + 1)`) it is
  `NeighbourMax.direct` at `(i, j)`: the nine values joined one after the other, row by row.
-/
import proofs.«135936_j43971875176514_2_alg».proof.Proof.LibNeighbourMax
import Idealize.ShloMosaic.Lib.ValueIdx

noncomputable section

namespace Cert.PoolSpec

open Idealize.ShloMosaic Idealize.ShloMosaic.ValueIdx NeighbourMax

/-- Image `b` of the array, as a function of its two coordinates. -/
def image (x : (⟨3, ![64, 1024, 1024]⟩ : Shape).Idx → EReal) (b : Fin 64) : Fin 1024 → Fin 1024 → EReal :=
  fun i j => x (ix3 b i j)

/-- The result at pixel `(i, j)` of image `b`. -/
def poolAt (x : (⟨3, ![64, 1024, 1024]⟩ : Shape).Idx → EReal) (b : Fin 64) (i j : Fin 1024) : EReal :=
  direct 0 (padded 0 (image x b)) i.val j.val

/-- The result array, index by index. -/
def poolHole (x : (⟨3, ![64, 1024, 1024]⟩ : Shape).Idx → EReal) : (⟨3, ![64, 1024, 1024]⟩ : Shape).Idx → EReal :=
  fun k => poolAt x (k 0) (k 1) (k 2)

theorem poolHole_ix3 (x : (⟨3, ![64, 1024, 1024]⟩ : Shape).Idx → EReal) (b : Fin 64) (i j : Fin 1024) :
    poolHole x (ix3 b i j) = direct 0 (padded 0 (image x b)) i.val j.val := rfl

end Cert.PoolSpec

end
-- ==== Proof.PoolBlocks.lean ====
/-
  From blocks to the array: the kernel's result array is the specification of its argument array.

  The grid has 64 points; at point `t` both windows' block is image `t` whole (block index `(t, 0, 0)`, block extents
  `[1, 1024, 1024]`). The body's stored value at pixel `(i, j)` of the block is the eight-neighbour maximum of the
  loaded image, and every neighbour of a pixel lies in the same image, hence in the same block: so what point `t`
  writes back is block `t` of the specification applied to the whole argument array (`flushed_eq`). The 64 blocks cover
  the result array (the point covering `(b, i, j)` is `b`), so the array ends at the specification (`final`, `run`).
-/
import proofs.«135936_j43971875176514_2_alg».proof.Proof.Gen.KernelIdeal.Value
import proofs.«135936_j43971875176514_2_alg».proof.Proof.PoolBody
import proofs.«135936_j43971875176514_2_alg».proof.Proof.PoolSpec

set_option maxRecDepth 16384

noncomputable section

namespace Cert.KernelIdeal.PoolValue

open Cert.KernelIdeal Cert.KernelIdeal.Gen Cert.PoolSpec
open Idealize.ShloMosaic Idealize.ShloMosaic.TcCoe Idealize.SL.Sem Idealize.ShloMosaic.ValueIdx NeighbourMax
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 64 points: both windows' block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- One block, over plain variables: if the loaded block `x0` is image `b` of the array `X`, the body's stored value at
    `y = (u, i, j)` is the specification of `X` at any array index `k = (b, i, j)`. -/
theorem block_value (X : S64x1024x1024.Idx → EReal) (x0 : Vec Ideal S1x1024x1024 .f32) (b : Fin 64)
    (hx : ∀ i j : Fin 1024, x0 (ix3 (0 : Fin 1) i j) = X (ix3 b i j))
    (y : S1x1024x1024.Idx) (k : S64x1024x1024.Idx)
    (hk0 : (k 0).val = b.val) (hk1 : (k 1).val = (y 1).val) (hk2 : (k 2).val = (y 2).val) :
    k0_pay1 (F := Ideal) x0 y = poolHole X k := by
  obtain ⟨u, i, j, rfl⟩ : ∃ (u : Fin 1) (i j : Fin 1024), y = ix3 u i j := ⟨y 0, y 1, y 2, eq_ix3 y⟩
  obtain ⟨b', i', j', rfl⟩ : ∃ (b' : Fin 64) (i' j' : Fin 1024), k = ix3 b' i' j' := ⟨k 0, k 1, k 2, eq_ix3 k⟩
  obtain rfl : b' = b := Fin.ext hk0
  obtain rfl : i' = i := Fin.ext hk1
  obtain rfl : j' = j := Fin.ext hk2
  rw [PoolBody.pay_apply, poolHole_ix3]
  refine congrArg (fun f => direct 0 (padded 0 f) i'.val j'.val) ?_
  funext a d
  exact hx a d

/-- WHAT POINT `t` WRITES BACK is block `t` of the specification of the argument array as the region finds it. -/
theorem flushed_eq (c : Dev nD) (t : Fin cfg0.N) :
    (dats m 0 c).flushed 1 t = ((cfg0.win 1).blk t).view.read (Elt Ideal) (poolHole (V m c main_arg0)) := by
  rw [Value.flushed1]
  unfold out0_1
  rw [View.canon_unit_zero hz]
  simp only [View.ld_unit_zero (S := S1x1024x1024) hz]
  obtain ⟨e0, e1, e2, e3, e4, e5⟩ := idx_facts t
  have hN : cfg0.N = 64 := N_0
  have ht : t.val < 64 := by have h : t.val < cfg0.N := t.isLt; omega
  funext y
  show k0_pay1 (F := Ideal) (fun z : S1x1024x1024.Idx => V m c main_arg0 (((cfg0.win 0).blk t).view.emb z)) y
    = poolHole (V m c main_arg0) (((cfg0.win 1).blk t).view.emb y)
  have hy0 : (y 0).val < 1 := (y 0).isLt
  refine block_value (V m c main_arg0) _ ⟨t.val, ht⟩ (fun i j => ?_) y _ ?_ ?_ ?_
  · show V m c main_arg0 (((cfg0.win 0).blk t).view.emb (ix3 (0 : Fin 1) i j)) = V m c main_arg0 (ix3 ⟨t.val, ht⟩ i j)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 1024 + 1 * i.val = i.val; omega
    | ⟨2, _⟩ => show win0_0.index t (2 : Fin 3) * 1024 + 1 * j.val = j.val; omega
  · show win0_1.index t (0 : Fin 3) * 1 + 1 * (y 0).val = t.val; omega
  · show win0_1.index t (1 : Fin 3) * 1024 + 1 * (y 1).val = (y 1).val; omega
  · show win0_1.index t (2 : Fin 3) * 1024 + 1 * (y 2).val = (y 2).val; omega

/-- An index of the array is in point `t`'s block iff each coordinate is in the block's range on its axis. -/
theorem mem_blk (t : Fin cfg0.N) (i : S64x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every index `(b, i, j)` of the result array is in the block of point `b`. -/
theorem cover (i : S64x1024x1024.Idx) :
    ∃ t : Fin cfg0.N, (cfg0.win 1).flush t = true ∧ i ∈ ((cfg0.win 1).blk t).view.set := by
  have hN : grid0.N = 64 := N_0
  have h0 : (i 0).val < 64 := (i 0).isLt
  have h1 : (i 1).val < 1024 := (i 1).isLt
  have h2 : (i 2).val < 1024 := (i 2).isLt
  obtain ⟨t, ht⟩ : ∃ t : Fin cfg0.N, t.val = (i 0).val := ⟨⟨(i 0).val, by show (i 0).val < grid0.N; omega⟩, rfl⟩
  obtain ⟨-, -, -, e3, e4, e5⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- THE ARRAY after the run is the specification of the argument array. -/
theorem final (c : Dev nD) : (dats m 0 c).arrAt 1 cfg0.N = poolHole (V m c main_arg0) :=
  (dats m 0 c).arrAt_eq_of_cover 1 (poolHole (V m c main_arg0)) (fun t _ => flushed_eq m c t) cover

/-- The kernel's run: the result array ends at the specification of the argument array, which ends unchanged. -/
theorem run : θ_run defs (onTc (τ := τ) (main (F := Ideal))) ⟨m, fun _ => 0, ρ⟩ fun r => ∀ c : Dev nD,
      r.2.mem ((c : Thread nD τ).loc main_v0) = poolHole (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.PoolValue

end
-- ==== Proof.PoolRef.lean ====
/-
  The reference computes the specification.

  The reference pads every image by one line of zeros on each side (a `[64, 1026, 1026]` array), and joins, starting
  from an array of zeros, the eight `[64, 1024, 1024]` slices of the padded array at the offsets `(di, dj)`,
  `di, dj ∈ {0, 1, 2}` without `(1, 1)`, in row-major order of the offsets. A slice at offset `(di, dj)` read at
  `(b, i, j)` is the padded array at `(b, i + di, j + dj)`, and the padded array at `(b, I, J)` is the zero-padded image
  `b` at padded coordinates `(I, J)` (`pad_read`). So the result at `(b, i, j)` is `NeighbourMax.direct`, the
  specification's own arrangement (`ref_eq`).
-/
import proofs.«135936_j43971875176514_2_alg».proof.Proof.Gen.ReferenceIdeal.Read
import proofs.«135936_j43971875176514_2_alg».proof.Proof.PoolSpec
import Idealize.ShloMosaic.Lib.KernelVsHost
import Idealize.ShloMosaic.PureOps.Ideal.Laws

noncomputable section

namespace Cert.ReferenceIdeal.PoolRef

open Cert.ReferenceIdeal Cert.ReferenceIdeal.Gen Cert.ReferenceIdeal.Read Cert.PoolSpec
open Idealize.ShloMosaic Idealize.ShloMosaic.ValueIdx NeighbourMax

/-- The padding value, the integer `0` converted, is `0`. -/
theorem padval (k : S_.Idx) : val_main_call0_v0 (F := Ideal) k = 0 := by
  show (((0#32 : BitVec 32).toInt : ℝ) : EReal) = 0
  simp

/-- The padded array at `(b, I, J)` is image `b` padded by zeros, at padded coordinates `(I, J)`. -/
theorem pad_read (x : (⟨S64x1024x1024, .f32⟩ : BufTy).Contents (Elt Ideal)) (b : Fin 64) (I J : Fin 1026) :
    val_main_v0 (F := Ideal) x (ix3 b I J) = padded 0 (image x b) I.val J.val := by
  unfold val_main_v0
  have hI : I.val < 1026 := I.isLt
  have hJ : J.val < 1026 := J.isLt
  by_cases hIin : 1 ≤ I.val ∧ I.val ≤ 1024
  · by_cases hJin : 1 ≤ J.val ∧ J.val ≤ 1024
    · refine (pad_apply_of_inside ![0, 1, 1] ![0, 1, 1] ![0, 0, 0] x (val_main_call0_v0 (F := Ideal))
        pads_S64x1024x1024_S64x1026x1026_000_110_110 h_S_ (ix3 b I J)
        (ix3 b (⟨I.val - 1, by omega⟩ : Fin 1024) (⟨J.val - 1, by omega⟩ : Fin 1024)) (fun a => ?_)).trans ?_
      · match a with
        | ⟨0, _⟩ => show b.val = 0 + b.val * (0 + 1); omega
        | ⟨1, _⟩ => show I.val = 1 + (I.val - 1) * (0 + 1); omega
        | ⟨2, _⟩ => show J.val = 1 + (J.val - 1) * (0 + 1); omega
      · exact (padded_at 0 (image x b) I.val J.val ⟨I.val - 1, by omega⟩ ⟨J.val - 1, by omega⟩
          (by show I.val = I.val - 1 + 1; omega) (by show J.val = J.val - 1 + 1; omega)).symm
    · refine (pad_apply_of_not_inside ![0, 1, 1] ![0, 1, 1] ![0, 0, 0] x (val_main_call0_v0 (F := Ideal))
        pads_S64x1024x1024_S64x1026x1026_000_110_110 h_S_ (ix3 b I J) (2 : Fin 3) (fun hin => hJin ?_)).trans ?_
      · have h1 : 1 ≤ J.val := hin.1
        have h2 : (J.val - 1) / (0 + 1) < 1024 := hin.2.2
        rw [Nat.zero_add, Nat.div_one] at h2
        omega
      · rw [padval]
        exact (padded_col_out 0 (image x b) _ _ (by omega)).symm
  · refine (pad_apply_of_not_inside ![0, 1, 1] ![0, 1, 1] ![0, 0, 0] x (val_main_call0_v0 (F := Ideal))
      pads_S64x1024x1024_S64x1026x1026_000_110_110 h_S_ (ix3 b I J) (1 : Fin 3) (fun hin => hIin ?_)).trans ?_
    · have h1 : 1 ≤ I.val := hin.1
      have h2 : (I.val - 1) / (0 + 1) < 1024 := hin.2.2
      rw [Nat.zero_add, Nat.div_one] at h2
      omega
    · rw [padval]
      exact (padded_row_out 0 (image x b) _ _ (by omega)).symm

/-- The padded array at an index whose coordinates are given by equations. -/
theorem pad_read_at (x : (⟨S64x1024x1024, .f32⟩ : BufTy).Contents (Elt Ideal)) (b : Fin 64) (K : S64x1026x1026.Idx)
    (I J : ℕ) (h0 : (K 0).val = b.val) (h1 : (K 1).val = I) (h2 : (K 2).val = J) :
    val_main_v0 (F := Ideal) x K = padded 0 (image x b) I J := by
  obtain ⟨b', I', J', rfl⟩ : ∃ (b' : Fin 64) (I' J' : Fin 1026), K = ix3 b' I' J' := ⟨K 0, K 1, K 2, eq_ix3 K⟩
  obtain rfl : b' = b := Fin.ext h0
  subst h1 h2
  exact pad_read x b' I' J'

/-- THE REFERENCE'S RESULT is the specification of its argument. -/
theorem ref_eq (x : (⟨S64x1024x1024, .f32⟩ : BufTy).Contents (Elt Ideal)) :
    val_main_v17 (F := Ideal) x = poolHole x := by
  funext k
  obtain ⟨b, i, j, rfl⟩ : ∃ (b : Fin 64) (i j : Fin 1024), k = ix3 b i j := ⟨k 0, k 1, k 2, eq_ix3 k⟩
  rw [poolHole_ix3]
  simp only [val_main_v17_apply, val_main_v15_apply, val_main_v13_apply, val_main_v11_apply, val_main_v9_apply,
    val_main_v7_apply, val_main_v5_apply, val_main_v3_apply, val_main_v1_apply, val_main_cst_apply,
    val_main_v2_apply, val_main_v4_apply, val_main_v6_apply, val_main_v8_apply, val_main_v10_apply,
    val_main_v12_apply, val_main_v14_apply, val_main_v16_apply]
  rw [pad_read_at x b (idx_main_v2 (ix3 b i j)) i.val j.val rfl rfl rfl,
    pad_read_at x b (idx_main_v4 (ix3 b i j)) i.val (j.val + 1) rfl rfl (Nat.add_comm 1 j.val),
    pad_read_at x b (idx_main_v6 (ix3 b i j)) i.val (j.val + 2) rfl rfl (Nat.add_comm 2 j.val),
    pad_read_at x b (idx_main_v8 (ix3 b i j)) (i.val + 1) j.val rfl (Nat.add_comm 1 i.val) rfl,
    pad_read_at x b (idx_main_v10 (ix3 b i j)) (i.val + 1) (j.val + 2) rfl (Nat.add_comm 1 i.val) (Nat.add_comm 2 j.val),
    pad_read_at x b (idx_main_v12 (ix3 b i j)) (i.val + 2) j.val rfl (Nat.add_comm 2 i.val) rfl,
    pad_read_at x b (idx_main_v14 (ix3 b i j)) (i.val + 2) (j.val + 1) rfl (Nat.add_comm 2 i.val) (Nat.add_comm 1 j.val),
    pad_read_at x b (idx_main_v16 (ix3 b i j)) (i.val + 2) (j.val + 2) rfl (Nat.add_comm 2 i.val) (Nat.add_comm 2 j.val)]
  show max (max (max (max (max (max (max (max (Ideal.ofBits .f32 0x00000000#32) _) _) _) _) _) _) _) _ = _
  rw [Ideal.ofBits_zero_f32]
  rfl

end Cert.ReferenceIdeal.PoolRef

end
-- ==== Proof.lean ====
/-
  A 3 × 3 maximum pool with a hole, computed by rolls and masks, against the padded-slices reference.

  For `x` of 64 images of `1024 × 1024` numbers both programs return, at `(b, i, j)`, the maximum of `0` and the eight
  neighbours of pixel `(i, j)` in image `b` (the pixel itself left out), a neighbour outside the image counting as `0`.
  The reference pads each image by a line of zeros and joins eight slices of the padded array, one per neighbour. The
  kernel handles one image per grid point and never builds the padded image: it rolls the image by one row up and
  down and puts zero in the wrapped row, takes the three-row maximum of every column, rolls THAT by one column left
  and right with zero in the wrapped column, and joins the two vertical neighbours, the two shifted column maxima and
  zero. Over the extended reals (a linear order) a roll by one with the wrapped line set to zero IS a read of the
  zero-padded image one line over, and the kernel's separable arrangement joins the same nine values as the
  reference's direct one; the maximum being associative and commutative, the two results are equal. Nothing here
  needs the inputs finite.
  The kernel's result array as one function of its argument (Proof/PoolBlocks.lean over Proof/PoolBody.lean) and the
  reference's (Proof/PoolRef.lean) are both the specification of Proof/PoolSpec.lean.
-/
import proofs.«135936_j43971875176514_2_alg».proof.Defs
import proofs.«135936_j43971875176514_2_alg».proof.Proof.Gen.Kernel
import proofs.«135936_j43971875176514_2_alg».proof.Proof.Gen.Kernel.Skeleton
import proofs.«135936_j43971875176514_2_alg».proof.Proof.Gen.Kernel.Launch
import proofs.«135936_j43971875176514_2_alg».proof.Proof.Gen.Kernel.Points
import proofs.«135936_j43971875176514_2_alg».proof.Proof.Gen.Kernel.Frame
import proofs.«135936_j43971875176514_2_alg».proof.Proof.Gen.KernelIdeal
import proofs.«135936_j43971875176514_2_alg».proof.Proof.Gen.KernelIdeal.Skeleton
import proofs.«135936_j43971875176514_2_alg».proof.Proof.Gen.KernelIdeal.Launch
import proofs.«135936_j43971875176514_2_alg».proof.Proof.Gen.KernelIdeal.Points
import proofs.«135936_j43971875176514_2_alg».proof.Proof.Gen.KernelIdeal.Frame
import proofs.«135936_j43971875176514_2_alg».proof.Proof.Gen.ReferenceIdeal
import proofs.«135936_j43971875176514_2_alg».proof.Proof.Gen.Pre_finite_inputs
import proofs.«135936_j43971875176514_2_alg».proof.Proof.Gen.KernelIdeal.Value
import proofs.«135936_j43971875176514_2_alg».proof.Proof.Gen.ReferenceIdeal.Run
import proofs.«135936_j43971875176514_2_alg».proof.Proof.Gen.ReferenceIdeal.Read
import proofs.«135936_j43971875176514_2_alg».proof.Proof.PoolBlocks
import proofs.«135936_j43971875176514_2_alg».proof.Proof.PoolRef
import Idealize.ShloMosaic.Adequacy
import Idealize.ShloMosaic.Init

noncomputable section

namespace Cert.Proof

open Idealize.ShloMosaic Idealize.SL.Sem

/-- The word-level kernel runs, and its argument ends unchanged: the generated frame. -/
theorem frame_k : Cert.frame_Kernel := fun m ρ _ => Cert.Kernel.Gen.frame m ρ

/-- The idealized kernel runs, and its argument ends unchanged: the generated frame. -/
theorem frame_ki : Cert.frame_KernelIdeal := fun m ρ _ => Cert.KernelIdeal.Gen.frame m ρ

/-- The reference runs, and its argument ends unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the specification of its argument, and the
    reference's result is the specification of its own: one array. -/
theorem algebraic : Cert.algebraic_KernelIdeal_ReferenceIdeal := by
  intro m ρ m' ρ' _ hagree
  refine ⟨fun c => Cert.PoolSpec.poolHole (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.PoolRef.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
